-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x320x64x64x64 : Shape := ⟨5, ![1, 320, 64, 64, 64]⟩
abbrev S_ : Shape := ⟨0, ![]⟩

class Facts : Prop where
  bcast_S_S1x320x64x64x64 : S_.BroadcastsInDim S1x320x64x64x64 (![] : Fin 0 → Fin S1x320x64x64x64.rank)
  reducesTo_S1x320x64x64x64_S_d0_1_2_3_4 : S1x320x64x64x64.ReducesTo [0, 1, 2, 3, 4] S_
  h_S_ : 0 < S_.numel

variable [Facts]

def fn {F : FTy → Type} [FloatOps F] (main_arg0 : FVec F S1x320x64x64x64 .f32) : IVec S_ 1 :=
  let main_v0 : FVec F S1x320x64x64x64 .f32 := Host.absf main_arg0
  let main_cst : FVec F S_ .f32 := constant S_ .f32 0x7F800000#32
  let main_v1 : FVec F S1x320x64x64x64 .f32 := broadcastInDim S1x320x64x64x64 ![] bcast_S_S1x320x64x64x64 main_cst
  let main_v2 : IVec S1x320x64x64x64 1 := cmpf .olt main_v0 main_v1
  let main_c : IVec S_ 1 := constantI S_ 1 1#1
  let main_v3 : IVec S_ 1 := (fun x v => Host.reduce IntOp.andi x v reducesTo_S1x320x64x64x64_S_d0_1_2_3_4 h_S_) main_v2 main_c
  main_v3
-- ==== Kernel.lean ====
abbrev S1x320x64x64x64 : Shape := ⟨5, ![1, 320, 64, 64, 64]⟩
abbrev S_ : Shape := ⟨0, ![]⟩
abbrev S1x320x68x64x64 : Shape := ⟨5, ![1, 320, 68, 64, 64]⟩
abbrev S1x32x68x8x64 : Shape := ⟨5, ![1, 32, 68, 8, 64]⟩
abbrev S1x32x64x8x64 : Shape := ⟨5, ![1, 32, 64, 8, 64]⟩

abbrev nBuf : Space → Nat
  | .hbm => 5
  | .vmem => 4
  | .smem => 0
  | _ => 0

abbrev bufTy : (tb : Table) → Fin (tcTables nBuf tb) → BufTy
  | .hbm, ⟨0, _⟩ => ⟨S1x320x64x64x64, .f32⟩
  | .hbm, ⟨1, _⟩ => ⟨S_, .i32⟩
  | .hbm, ⟨2, _⟩ => ⟨S_, .f32⟩
  | .hbm, ⟨3, _⟩ => ⟨S1x320x68x64x64, .f32⟩
  | .hbm, ⟨4, _⟩ => ⟨S1x320x64x64x64, .f32⟩
  | .local _ .vmem, ⟨0, _⟩ => ⟨S1x32x68x8x64, .f32⟩
  | .local _ .vmem, ⟨1, _⟩ => ⟨S1x32x68x8x64, .f32⟩
  | .local _ .vmem, ⟨2, _⟩ => ⟨S1x32x64x8x64, .f32⟩
  | .local _ .vmem, ⟨3, _⟩ => ⟨S1x32x64x8x64, .f32⟩
  | _, _ => ⟨S1x320x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![5, 2, 8], ![false, false, false]⟩

def k0_off1 (i : grid0.Coords) : Fin 5 → Nat :=
  let c0 : Index := 0#32
  let c0_0 : Index := 0#32
  let c4_i32 : BitVec 32 := 4#32
  let arg0 : BitVec 32 := BitVec.ofNat 32 (i 0).val
  let v0 : BitVec 32 := Scalar.subi c4_i32 arg0
  let v1 : Index := Scalar.indexCast v0
  let c0_1 : Index := 0#32
  let c0_2 : Index := 0#32
  ![0, 0, v1.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, arg2.toNat, c0_i32_1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, arg2.toNat, c0_i32_1.toNat]

abbrev stage0_0 : Fin 2 → Memref sig .tc .vmem S1x32x68x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x64x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  pads_S1x320x64x64x64_S1x320x68x64x64_000_000_220_000_000 : S1x320x64x64x64.Pads (![0, 0, 2, 0, 0] : Fin 5 → Nat) ![0, 0, 2, 0, 0] ![0, 0, 0, 0, 0] S1x320x68x64x64
  h_S_ : 0 < S_.numel
  h_S1x32x64x8x64 : 0 < S1x32x64x8x64.numel
  shapeCasts_S1x32x64x8x64_S1x32x64x8x64 : S1x32x64x8x64.ShapeCasts S1x32x64x8x64
  inb_S1x32x64x8x64_S1x32x64x8x64_0_0_0_0_0 : ∀ a, (![0, 0, 0, 0, 0] : Fin 5 → Nat) a + S1x32x64x8x64.size a ≤ S1x32x64x8x64.size a
  hrank0 : 0 < grid0.rank
  k0_off1_inb : ∀ i : grid0.Coords, ∀ a, (k0_off1 i) a + S1x32x64x8x64.size a ≤ S1x32x68x8x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x68x8x64.size a ≤ S1x320x68x64x64.size a
  hwx0_0 : ∀ i : grid0.Coords, EltTy.bits .f32 = 32 ∨ (Rect.block (s := S1x320x68x64x64) S1x32x68x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64x8x64.size a ≤ S1x320x64x64x64.size a
  hwx0_1 : ∀ i : grid0.Coords, EltTy.bits .f32 = 32 ∨ (Rect.block (s := S1x320x64x64x64) S1x32x64x8x64.size (cc0_transform_1 i) (hinb0_1 i)).WholeWords (EltTy.packing .f32)

variable [Facts₀]

abbrev win0_0 : Pipeline.Window sig grid0 :=
  Pipeline.Window.ofSpec (Memref.whole main_v0) S1x32x68x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x64x8x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x320x64x64x64 : Shape := ⟨5, ![1, 320, 64, 64, 64]⟩
abbrev S_ : Shape := ⟨0, ![]⟩
abbrev S1x320x68x64x64 : Shape := ⟨5, ![1, 320, 68, 64, 64]⟩
abbrev S1x64x68x64x64 : Shape := ⟨5, ![1, 64, 68, 64, 64]⟩
abbrev S1x64x66x64x64 : Shape := ⟨5, ![1, 64, 66, 64, 64]⟩
abbrev S1x64x2x64x64 : Shape := ⟨5, ![1, 64, 2, 64, 64]⟩
abbrev S1x64x67x64x64 : Shape := ⟨5, ![1, 64, 67, 64, 64]⟩
abbrev S1x64x1x64x64 : Shape := ⟨5, ![1, 64, 1, 64, 64]⟩
abbrev S1x64x0x64x64 : Shape := ⟨5, ![1, 64, 0, 64, 64]⟩

abbrev nBuf : Space → Nat
  | .hbm => 26
  | .vmem => 0
  | .smem => 0
  | _ => 0

abbrev bufTy : (tb : Table) → Fin (tcTables nBuf tb) → BufTy
  | .hbm, ⟨0, _⟩ => ⟨S1x320x64x64x64, .f32⟩
  | .hbm, ⟨1, _⟩ => ⟨S_, .i32⟩
  | .hbm, ⟨2, _⟩ => ⟨S_, .f32⟩
  | .hbm, ⟨3, _⟩ => ⟨S1x320x68x64x64, .f32⟩
  | .hbm, ⟨4, _⟩ => ⟨S1x64x68x64x64, .f32⟩
  | .hbm, ⟨5, _⟩ => ⟨S1x64x68x64x64, .f32⟩
  | .hbm, ⟨6, _⟩ => ⟨S1x64x68x64x64, .f32⟩
  | .hbm, ⟨7, _⟩ => ⟨S1x64x68x64x64, .f32⟩
  | .hbm, ⟨8, _⟩ => ⟨S1x64x68x64x64, .f32⟩
  | .hbm, ⟨9, _⟩ => ⟨S1x64x66x64x64, .f32⟩
  | .hbm, ⟨10, _⟩ => ⟨S1x64x2x64x64, .f32⟩
  | .hbm, ⟨11, _⟩ => ⟨S1x64x68x64x64, .f32⟩
  | .hbm, ⟨12, _⟩ => ⟨S1x64x67x64x64, .f32⟩
  | .hbm, ⟨13, _⟩ => ⟨S1x64x1x64x64, .f32⟩
  | .hbm, ⟨14, _⟩ => ⟨S1x64x68x64x64, .f32⟩
  | .hbm, ⟨15, _⟩ => ⟨S1x64x68x64x64, .f32⟩
  | .hbm, ⟨16, _⟩ => ⟨S1x64x0x64x64, .f32⟩
  | .hbm, ⟨17, _⟩ => ⟨S1x64x68x64x64, .f32⟩
  | .hbm, ⟨18, _⟩ => ⟨S1x64x1x64x64, .f32⟩
  | .hbm, ⟨19, _⟩ => ⟨S1x64x67x64x64, .f32⟩
  | .hbm, ⟨20, _⟩ => ⟨S1x64x68x64x64, .f32⟩
  | .hbm, ⟨21, _⟩ => ⟨S1x64x2x64x64, .f32⟩
  | .hbm, ⟨22, _⟩ => ⟨S1x64x66x64x64, .f32⟩
  | .hbm, ⟨23, _⟩ => ⟨S1x64x68x64x64, .f32⟩
  | .hbm, ⟨24, _⟩ => ⟨S1x320x68x64x64, .f32⟩
  | .hbm, ⟨25, _⟩ => ⟨S1x320x64x64x64, .f32⟩
  | _, _ => ⟨S1x320x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call1_v0 : Ref sig .tc := ⟨.hbm, 9, rfl⟩
abbrev main_call1_v1 : Ref sig .tc := ⟨.hbm, 10, rfl⟩
abbrev main_v6 : Ref sig .tc := ⟨.hbm, 11, rfl⟩
abbrev main_call2_v0 : Ref sig .tc := ⟨.hbm, 12, rfl⟩
abbrev main_call2_v1 : Ref sig .tc := ⟨.hbm, 13, rfl⟩
abbrev main_v7 : Ref sig .tc := ⟨.hbm, 14, rfl⟩
abbrev main_call3_v0 : Ref sig .tc := ⟨.hbm, 15, rfl⟩
abbrev main_call3_v1 : Ref sig .tc := ⟨.hbm, 16, rfl⟩
abbrev main_v8 : Ref sig .tc := ⟨.hbm, 17, rfl⟩
abbrev main_call4_v0 : Ref sig .tc := ⟨.hbm, 18, rfl⟩
abbrev main_call4_v1 : Ref sig .tc := ⟨.hbm, 19, rfl⟩
abbrev main_v9 : Ref sig .tc := ⟨.hbm, 20, rfl⟩
abbrev main_call5_v0 : Ref sig .tc := ⟨.hbm, 21, rfl⟩
abbrev main_call5_v1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  pads_S1x320x64x64x64_S1x320x68x64x64_000_000_220_000_000 : S1x320x64x64x64.Pads (![0, 0, 2, 0, 0] : Fin 5 → Nat) ![0, 0, 2, 0, 0] ![0, 0, 0, 0, 0] S1x320x68x64x64
  h_S_ : 0 < S_.numel
  slices_S1x320x68x64x64_S1x64x68x64x64_0_0_0_0_0 : S1x320x68x64x64.Slices ![0, 0, 0, 0, 0] S1x64x68x64x64
  slices_S1x320x68x64x64_S1x64x68x64x64_0_64_0_0_0 : S1x320x68x64x64.Slices ![0, 64, 0, 0, 0] S1x64x68x64x64
  slices_S1x320x68x64x64_S1x64x68x64x64_0_128_0_0_0 : S1x320x68x64x64.Slices ![0, 128, 0, 0, 0] S1x64x68x64x64
  slices_S1x320x68x64x64_S1x64x68x64x64_0_192_0_0_0 : S1x320x68x64x64.Slices ![0, 192, 0, 0, 0] S1x64x68x64x64
  slices_S1x320x68x64x64_S1x64x68x64x64_0_256_0_0_0 : S1x320x68x64x64.Slices ![0, 256, 0, 0, 0] S1x64x68x64x64
  slices_S1x64x68x64x64_S1x64x66x64x64_0_0_2_0_0 : S1x64x68x64x64.Slices ![0, 0, 2, 0, 0] S1x64x66x64x64
  slices_S1x64x68x64x64_S1x64x2x64x64_0_0_0_0_0 : S1x64x68x64x64.Slices ![0, 0, 0, 0, 0] S1x64x2x64x64
  concatenates_S1x64x66x64x64_S1x64x2x64x64_S1x64x68x64x64_d2 : Shape.Concatenates [S1x64x66x64x64, S1x64x2x64x64] S1x64x68x64x64 2
  slices_S1x64x68x64x64_S1x64x67x64x64_0_0_1_0_0 : S1x64x68x64x64.Slices ![0, 0, 1, 0, 0] S1x64x67x64x64
  slices_S1x64x68x64x64_S1x64x1x64x64_0_0_0_0_0 : S1x64x68x64x64.Slices ![0, 0, 0, 0, 0] S1x64x1x64x64
  concatenates_S1x64x67x64x64_S1x64x1x64x64_S1x64x68x64x64_d2 : Shape.Concatenates [S1x64x67x64x64, S1x64x1x64x64] S1x64x68x64x64 2
  slices_S1x64x68x64x64_S1x64x68x64x64_0_0_0_0_0 : S1x64x68x64x64.Slices ![0, 0, 0, 0, 0] S1x64x68x64x64
  slices_S1x64x68x64x64_S1x64x0x64x64_0_0_0_0_0 : S1x64x68x64x64.Slices ![0, 0, 0, 0, 0] S1x64x0x64x64
  concatenates_S1x64x68x64x64_S1x64x0x64x64_S1x64x68x64x64_d2 : Shape.Concatenates [S1x64x68x64x64, S1x64x0x64x64] S1x64x68x64x64 2
  slices_S1x64x68x64x64_S1x64x1x64x64_0_0_67_0_0 : S1x64x68x64x64.Slices ![0, 0, 67, 0, 0] S1x64x1x64x64
  slices_S1x64x68x64x64_S1x64x67x64x64_0_0_0_0_0 : S1x64x68x64x64.Slices ![0, 0, 0, 0, 0] S1x64x67x64x64
  concatenates_S1x64x1x64x64_S1x64x67x64x64_S1x64x68x64x64_d2 : Shape.Concatenates [S1x64x1x64x64, S1x64x67x64x64] S1x64x68x64x64 2
  slices_S1x64x68x64x64_S1x64x2x64x64_0_0_66_0_0 : S1x64x68x64x64.Slices ![0, 0, 66, 0, 0] S1x64x2x64x64
  slices_S1x64x68x64x64_S1x64x66x64x64_0_0_0_0_0 : S1x64x68x64x64.Slices ![0, 0, 0, 0, 0] S1x64x66x64x64
  concatenates_S1x64x2x64x64_S1x64x66x64x64_S1x64x68x64x64_d2 : Shape.Concatenates [S1x64x2x64x64, S1x64x66x64x64] S1x64x68x64x64 2
  concatenates_S1x64x68x64x64_S1x64x68x64x64_S1x64x68x64x64_S1x64x68x64x64_S1x64x68x64x64_S1x320x68x64x64_d1 : Shape.Concatenates [S1x64x68x64x64, S1x64x68x64x64, S1x64x68x64x64, S1x64x68x64x64, S1x64x68x64x64] S1x320x68x64x64 1
  slices_S1x320x68x64x64_S1x320x64x64x64_0_0_2_0_0 : S1x320x68x64x64.Slices ![0, 0, 2, 0, 0] S1x320x64x64x64

variable [Facts₀]

class Facts : Prop extends Facts₀ where

variable [Facts]
-- ==== Proof.Shift.lean ====
/-
  The one function both programs compute.  Write `xp` for the input with two planes of zeros put in front of and
  two behind its depth axis (depth 68 instead of 64).  The 320 channels fall into five groups of 64, channel `c` into
  group `c / 64`, and group `g` is moved `g - 2` planes along the depth, zeros moving in at the ends: entry
  `(b, c, d, h, w)` of the result is `xp (b, c, d + 4 - c / 64, h, w)`.  As `0 ≤ c / 64 ≤ 4` and `0 ≤ d ≤ 63`, the
  plane read lies between 0 and 67: nothing wraps around.
-/
import Idealize.ShloMosaic.Lib.ValueIdx

namespace Cert.Shift

open Idealize.ShloMosaic

/-- The shape of the input and of the result, -/
abbrev Sx : Shape := ⟨5, ![1, 320, 64, 64, 64]⟩
/-- and of the input padded along the depth. -/
abbrev Sp : Shape := ⟨5, ![1, 320, 68, 64, 64]⟩

/-- Where entry `i` of the result is read in the padded input: the same entry, `4 - c / 64` planes deeper. -/
abbrev src (i : Sx.Idx) : Sp.Idx := fun a => match a with
  | ⟨0, _⟩ => ⟨(i 0).val, (i 0).isLt⟩
  | ⟨1, _⟩ => ⟨(i 1).val, (i 1).isLt⟩
  | ⟨2, _⟩ => ⟨(i 2).val + 4 - (i 1).val / 64, by
      have h1 : (i 1).val < 320 := (i 1).isLt
      have h2 : (i 2).val < 64 := (i 2).isLt
      show _ < 68
      omega⟩
  | ⟨3, _⟩ => ⟨(i 3).val, (i 3).isLt⟩
  | ⟨4, _⟩ => ⟨(i 4).val, (i 4).isLt⟩

/-- The padded array with every group of channels moved along the depth. -/
def shifted {α : Type} (xp : Sp.Idx → α) : Sx.Idx → α := fun i => xp (src i)

/-- An entry of the padded array whose coordinates are those of `src i` is entry `i` of the shifted array. -/
theorem shifted_of_coords {α : Type} (xp : Sp.Idx → α) (i : Sx.Idx) (k : Sp.Idx)
    (h0 : (k 0).val = (i 0).val) (h1 : (k 1).val = (i 1).val)
    (h2 : (k 2).val + (i 1).val / 64 = (i 2).val + 4)
    (h3 : (k 3).val = (i 3).val) (h4 : (k 4).val = (i 4).val) : xp k = shifted xp i := by
  unfold shifted
  refine congrArg xp (funext fun a => Fin.ext ?_)
  match a with
  | ⟨0, _⟩ => exact h0
  | ⟨1, _⟩ => exact h1
  | ⟨2, _⟩ =>
    show (k 2).val = (i 2).val + 4 - (i 1).val / 64
    omega
  | ⟨3, _⟩ => exact h3
  | ⟨4, _⟩ => exact h4

end Cert.Shift
-- ==== Proof.RefShift.lean ====
/-
  The reference computes the group shift of the padded input.  It cuts the padded array into the five groups of 64
  channels, rolls group `g` by `g - 2` planes around the padded depth axis — a roll by `s` planes towards the front
  is written as the planes from `s` on followed by the first `s` planes, a roll towards the back as the last planes
  followed by the rest —, joins the groups again and keeps the planes 2 … 65.  A kept plane `2 + d` of a rolled group
  is never one of the planes that went around the end, so entry `(b, c, d, h, w)` of the result is the padded array's
  entry `(b, c, d + 4 - c / 64, h, w)`.
-/
import proofs.«143295_j72404558676308_2_alg».proof.Proof.Gen.ReferenceIdeal.Read
import proofs.«143295_j72404558676308_2_alg».proof.Proof.Shift
import Idealize.ShloMosaic.Lib.Pipeline.Value
import Idealize.ShloMosaic.Lib.ValueIdx

noncomputable section

namespace Cert.ReferenceIdeal.RefShift

open Cert.ReferenceIdeal Cert.ReferenceIdeal.Read Idealize.ShloMosaic Idealize.ShloMosaic.ValueIdx

variable {F : FTy → Type} [FloatOps F]

/-- An index of the padded array, -/
abbrev ip (a : Fin 1) (c : Fin 320) (d : Fin 68) (h w : Fin 64) : S1x320x68x64x64.Idx := ix5 a c d h w
/-- of one group of it, -/
abbrev ig (a : Fin 1) (c : Fin 64) (d : Fin 68) (h w : Fin 64) : S1x64x68x64x64.Idx := ix5 a c d h w
/-- and of the result. -/
abbrev ir (a : Fin 1) (c : Fin 320) (d : Fin 64) (h w : Fin 64) : S1x320x64x64x64.Idx := ix5 a c d h w

/-- Group 0 rolled two planes towards the front: a plane below 66 is the group's plane two further on. -/
theorem roll0 (x : (⟨S1x320x64x64x64, .f32⟩ : BufTy).Contents (Elt F)) (a : Fin 1) (c : Fin 64) (d : Fin 66) (h w : Fin 64) :
    val_main_v6 (F := F) x (ig a c ⟨d.val, by have := d.isLt; omega⟩ h w)
      = val_main_v0 (F := F) x (ip a ⟨c.val, by have := c.isLt; omega⟩ ⟨2 + d.val, by have := d.isLt; omega⟩ h w) := by
  unfold val_main_v6
  refine (concatenate_pair_apply_left (t := S1x64x68x64x64) (s₁ := S1x64x66x64x64) (s₂ := S1x64x2x64x64) _ _ _ _ _ rfl (ix5 a c d h w) (fun b => ?_)).trans ?_
  · match b with
    | ⟨0, _⟩ => rfl
    | ⟨1, _⟩ => rfl
    | ⟨2, _⟩ => rfl
    | ⟨3, _⟩ => rfl
    | ⟨4, _⟩ => rfl
  · rw [val_main_call1_v0_apply, val_main_v1_apply]
    refine congrArg _ (funext fun b => Fin.ext ?_)
    match b with
    | ⟨0, _⟩ => rfl
    | ⟨1, _⟩ => rfl
    | ⟨2, _⟩ => rfl
    | ⟨3, _⟩ => rfl
    | ⟨4, _⟩ => rfl

/-- Group 1 rolled one plane towards the front: a plane below 67 is the group's next plane. -/
theorem roll1 (x : (⟨S1x320x64x64x64, .f32⟩ : BufTy).Contents (Elt F)) (a : Fin 1) (c : Fin 64) (d : Fin 67) (h w : Fin 64) :
    val_main_v7 (F := F) x (ig a c ⟨d.val, by have := d.isLt; omega⟩ h w)
      = val_main_v0 (F := F) x (ip a ⟨64 + c.val, by have := c.isLt; omega⟩ ⟨1 + d.val, by have := d.isLt; omega⟩ h w) := by
  unfold val_main_v7
  refine (concatenate_pair_apply_left (t := S1x64x68x64x64) (s₁ := S1x64x67x64x64) (s₂ := S1x64x1x64x64) _ _ _ _ _ rfl (ix5 a c d h w) (fun b => ?_)).trans ?_
  · match b with
    | ⟨0, _⟩ => rfl
    | ⟨1, _⟩ => rfl
    | ⟨2, _⟩ => rfl
    | ⟨3, _⟩ => rfl
    | ⟨4, _⟩ => rfl
  · rw [val_main_call2_v0_apply, val_main_v2_apply]
    refine congrArg _ (funext fun b => Fin.ext ?_)
    match b with
    | ⟨0, _⟩ => rfl
    | ⟨1, _⟩ => rfl
    | ⟨2, _⟩ => rfl
    | ⟨3, _⟩ => rfl
    | ⟨4, _⟩ => rfl

/-- Group 2 is not moved. -/
theorem roll2 (x : (⟨S1x320x64x64x64, .f32⟩ : BufTy).Contents (Elt F)) (a : Fin 1) (c : Fin 64) (d : Fin 68) (h w : Fin 64) :
    val_main_v8 (F := F) x (ig a c d h w)
      = val_main_v0 (F := F) x (ip a ⟨128 + c.val, by have := c.isLt; omega⟩ ⟨d.val, d.isLt⟩ h w) := by
  unfold val_main_v8
  refine (concatenate_pair_apply_left (t := S1x64x68x64x64) (s₁ := S1x64x68x64x64) (s₂ := S1x64x0x64x64) _ _ _ _ _ rfl (ix5 a c d h w) (fun b => ?_)).trans ?_
  · match b with
    | ⟨0, _⟩ => rfl
    | ⟨1, _⟩ => rfl
    | ⟨2, _⟩ => rfl
    | ⟨3, _⟩ => rfl
    | ⟨4, _⟩ => rfl
  · rw [val_main_call3_v0_apply, val_main_v3_apply]
    refine congrArg _ (funext fun b => Fin.ext ?_)
    match b with
    | ⟨0, _⟩ => rfl
    | ⟨1, _⟩ => rfl
    | ⟨2, _⟩ => rfl
    | ⟨3, _⟩ => rfl
    | ⟨4, _⟩ => rfl

/-- Group 3 rolled one plane towards the back: a plane from 1 on is the group's plane before it. -/
theorem roll3 (x : (⟨S1x320x64x64x64, .f32⟩ : BufTy).Contents (Elt F)) (a : Fin 1) (c : Fin 64) (d : Fin 67) (h w : Fin 64) :
    val_main_v9 (F := F) x (ig a c ⟨1 + d.val, by have := d.isLt; omega⟩ h w)
      = val_main_v0 (F := F) x (ip a ⟨192 + c.val, by have := c.isLt; omega⟩ ⟨d.val, by have := d.isLt; omega⟩ h w) := by
  unfold val_main_v9
  refine (concatenate_pair_apply_right (t := S1x64x68x64x64) (s₁ := S1x64x1x64x64) (s₂ := S1x64x67x64x64) _ _ _ _ _ rfl rfl (ix5 a c d h w) (fun b hb => ?_) ?_).trans ?_
  · match b with
    | ⟨0, _⟩ => rfl
    | ⟨1, _⟩ => rfl
    | ⟨2, _⟩ => exact absurd rfl hb
    | ⟨3, _⟩ => rfl
    | ⟨4, _⟩ => rfl
  · show d.val + 1 = 1 + d.val
    omega
  · rw [val_main_call4_v1_apply, val_main_v4_apply]
    refine congrArg _ (funext fun b => Fin.ext ?_)
    match b with
    | ⟨0, _⟩ => rfl
    | ⟨1, _⟩ => rfl
    | ⟨2, _⟩ => rfl
    | ⟨3, _⟩ => rfl
    | ⟨4, _⟩ => rfl

/-- Group 4 rolled two planes towards the back: a plane from 2 on is the group's plane two before it. -/
theorem roll4 (x : (⟨S1x320x64x64x64, .f32⟩ : BufTy).Contents (Elt F)) (a : Fin 1) (c : Fin 64) (d : Fin 66) (h w : Fin 64) :
    val_main_v10 (F := F) x (ig a c ⟨2 + d.val, by have := d.isLt; omega⟩ h w)
      = val_main_v0 (F := F) x (ip a ⟨256 + c.val, by have := c.isLt; omega⟩ ⟨d.val, by have := d.isLt; omega⟩ h w) := by
  unfold val_main_v10
  refine (concatenate_pair_apply_right (t := S1x64x68x64x64) (s₁ := S1x64x2x64x64) (s₂ := S1x64x66x64x64) _ _ _ _ _ rfl rfl (ix5 a c d h w) (fun b hb => ?_) ?_).trans ?_
  · match b with
    | ⟨0, _⟩ => rfl
    | ⟨1, _⟩ => rfl
    | ⟨2, _⟩ => exact absurd rfl hb
    | ⟨3, _⟩ => rfl
    | ⟨4, _⟩ => rfl
  · show d.val + 2 = 2 + d.val
    omega
  · rw [val_main_call5_v1_apply, val_main_v5_apply]
    refine congrArg _ (funext fun b => Fin.ext ?_)
    match b with
    | ⟨0, _⟩ => rfl
    | ⟨1, _⟩ => rfl
    | ⟨2, _⟩ => rfl
    | ⟨3, _⟩ => rfl
    | ⟨4, _⟩ => rfl

/-- Two entries of the padded array with the same coordinates are one entry. -/
theorem at_coords (y : S1x320x68x64x64.Idx → Elt F .f32) (k k' : S1x320x68x64x64.Idx)
    (h0 : (k 0).val = (k' 0).val) (h1 : (k 1).val = (k' 1).val) (h2 : (k 2).val = (k' 2).val)
    (h3 : (k 3).val = (k' 3).val) (h4 : (k 4).val = (k' 4).val) : y k = y k' := by
  refine congrArg y (funext fun b => Fin.ext ?_)
  match b with
    | ⟨0, _⟩ => exact h0
    | ⟨1, _⟩ => exact h1
    | ⟨2, _⟩ => exact h2
    | ⟨3, _⟩ => exact h3
    | ⟨4, _⟩ => exact h4

/-- THE REFERENCE AT AN ENTRY: the padded array `4 - c / 64` planes deeper. -/
theorem ref_at (x : (⟨S1x320x64x64x64, .f32⟩ : BufTy).Contents (Elt F)) (a : Fin 1) (c : Fin 320) (d : Fin 64) (h w : Fin 64) :
    val_main_v12 (F := F) x (ir a c d h w)
      = val_main_v0 (F := F) x (ip a c ⟨d.val + 4 - c.val / 64, by have := c.isLt; have := d.isLt; omega⟩ h w) := by
  have hc := c.isLt
  have hd := d.isLt
  rw [val_main_v12_apply]
  unfold val_main_v11
  rcases (by omega : c.val < 64 ∨ (64 ≤ c.val ∧ c.val < 128) ∨ (128 ≤ c.val ∧ c.val < 192)
      ∨ (192 ≤ c.val ∧ c.val < 256) ∨ 256 ≤ c.val) with g | g | g | g | g
  · refine (concatenate_apply_piece (t := S1x320x68x64x64) _ _ _ _ 0 ?_ S1x64x68x64x64 (val_main_v6 (F := F) x) ?_ rfl 0 ?_
      (ig a ⟨c.val, g⟩ ⟨2 + d.val, by omega⟩ h w) (fun b hb => ?_) ?_).trans ?_
    · show (0 : Nat) < 5
      omega
    · rfl
    · rfl
    · match b with
      | ⟨0, _⟩ => rfl
      | ⟨1, _⟩ => exact absurd rfl hb
      | ⟨2, _⟩ => rfl
      | ⟨3, _⟩ => rfl
      | ⟨4, _⟩ => rfl
    · show 0 + c.val = c.val
      omega
    · refine (roll0 x a ⟨c.val, g⟩ ⟨2 + d.val, by omega⟩ h w).trans (at_coords _ _ _ rfl rfl ?_ rfl rfl)
      show 2 + (2 + d.val) = d.val + 4 - c.val / 64
      omega
  · refine (concatenate_apply_piece (t := S1x320x68x64x64) _ _ _ _ 1 ?_ S1x64x68x64x64 (val_main_v7 (F := F) x) ?_ rfl 64 ?_
      (ig a ⟨c.val - 64, by omega⟩ ⟨2 + d.val, by omega⟩ h w) (fun b hb => ?_) ?_).trans ?_
    · show (1 : Nat) < 5
      omega
    · rfl
    · rfl
    · match b with
      | ⟨0, _⟩ => rfl
      | ⟨1, _⟩ => exact absurd rfl hb
      | ⟨2, _⟩ => rfl
      | ⟨3, _⟩ => rfl
      | ⟨4, _⟩ => rfl
    · show 64 + (c.val - 64) = c.val
      omega
    · refine (roll1 x a ⟨c.val - 64, by omega⟩ ⟨2 + d.val, by omega⟩ h w).trans (at_coords _ _ _ rfl ?_ ?_ rfl rfl)
      · show 64 + (c.val - 64) = c.val
        omega
      · show 1 + (2 + d.val) = d.val + 4 - c.val / 64
        omega
  · refine (concatenate_apply_piece (t := S1x320x68x64x64) _ _ _ _ 2 ?_ S1x64x68x64x64 (val_main_v8 (F := F) x) ?_ rfl 128 ?_
      (ig a ⟨c.val - 128, by omega⟩ ⟨2 + d.val, by omega⟩ h w) (fun b hb => ?_) ?_).trans ?_
    · show (2 : Nat) < 5
      omega
    · rfl
    · rfl
    · match b with
      | ⟨0, _⟩ => rfl
      | ⟨1, _⟩ => exact absurd rfl hb
      | ⟨2, _⟩ => rfl
      | ⟨3, _⟩ => rfl
      | ⟨4, _⟩ => rfl
    · show 128 + (c.val - 128) = c.val
      omega
    · refine (roll2 x a ⟨c.val - 128, by omega⟩ ⟨2 + d.val, by omega⟩ h w).trans (at_coords _ _ _ rfl ?_ ?_ rfl rfl)
      · show 128 + (c.val - 128) = c.val
        omega
      · show 2 + d.val = d.val + 4 - c.val / 64
        omega
  · refine (concatenate_apply_piece (t := S1x320x68x64x64) _ _ _ _ 3 ?_ S1x64x68x64x64 (val_main_v9 (F := F) x) ?_ rfl 192 ?_
      (ig a ⟨c.val - 192, by omega⟩ ⟨1 + (1 + d.val), by omega⟩ h w) (fun b hb => ?_) ?_).trans ?_
    · show (3 : Nat) < 5
      omega
    · rfl
    · rfl
    · match b with
      | ⟨0, _⟩ => rfl
      | ⟨1, _⟩ => exact absurd rfl hb
      | ⟨2, _⟩ =>
        show 1 + (1 + d.val) = 2 + d.val
        omega
      | ⟨3, _⟩ => rfl
      | ⟨4, _⟩ => rfl
    · show 192 + (c.val - 192) = c.val
      omega
    · refine (roll3 x a ⟨c.val - 192, by omega⟩ ⟨1 + d.val, by omega⟩ h w).trans (at_coords _ _ _ rfl ?_ ?_ rfl rfl)
      · show 192 + (c.val - 192) = c.val
        omega
      · show 1 + d.val = d.val + 4 - c.val / 64
        omega
  · refine (concatenate_apply_piece (t := S1x320x68x64x64) _ _ _ _ 4 ?_ S1x64x68x64x64 (val_main_v10 (F := F) x) ?_ rfl 256 ?_
      (ig a ⟨c.val - 256, by omega⟩ ⟨2 + d.val, by omega⟩ h w) (fun b hb => ?_) ?_).trans ?_
    · show (4 : Nat) < 5
      omega
    · rfl
    · rfl
    · match b with
      | ⟨0, _⟩ => rfl
      | ⟨1, _⟩ => exact absurd rfl hb
      | ⟨2, _⟩ => rfl
      | ⟨3, _⟩ => rfl
      | ⟨4, _⟩ => rfl
    · show 256 + (c.val - 256) = c.val
      omega
    · refine (roll4 x a ⟨c.val - 256, by omega⟩ ⟨d.val, by omega⟩ h w).trans (at_coords _ _ _ rfl ?_ ?_ rfl rfl)
      · show 256 + (c.val - 256) = c.val
        omega
      · show d.val = d.val + 4 - c.val / 64
        omega

/-- THE REFERENCE'S RESULT is the group shift of its padded input. -/
theorem ref_eq (x : (⟨S1x320x64x64x64, .f32⟩ : BufTy).Contents (Elt F)) :
    val_main_v12 (F := F) x = Cert.Shift.shifted (val_main_v0 (F := F) x) := by
  funext i
  obtain ⟨a, c, d, h, w, rfl⟩ : ∃ (a : Fin 1) (c : Fin 320) (d h w : Fin 64), i = ir a c d h w :=
    ⟨i 0, i 1, i 2, i 3, i 4, eq_ix5 i⟩
  rw [ref_at]
  refine Cert.Shift.shifted_of_coords _ _ _ rfl rfl ?_ rfl rfl
  have hc := c.isLt
  show d.val + 4 - c.val / 64 + c.val / 64 = d.val + 4
  omega

end Cert.ReferenceIdeal.RefShift

end
-- ==== Proof.KernelBlock.lean ====
/-
  What the kernel body leaves in its output block.  At a grid point whose first coordinate is the group `g`, the body
  loads from its input block (32 channels, all 68 padded planes, 8 rows, 64 columns) the 64 planes that start at plane
  `4 - g`, and stores them as the whole output block (32 channels, 64 planes, 8 rows, 64 columns).  So the output block
  is the input block read through the rectangle of that load; nothing is computed.
-/
import proofs.«143295_j72404558676308_2_alg».proof.Proof.Gen.KernelIdeal.Value
import Idealize.ShloMosaic.Lib.Pipeline.Value
import Idealize.ShloMosaic.Lib.Tactic

noncomputable section

namespace Cert.KernelIdeal.Blk

open Cert.KernelIdeal Cert.KernelIdeal.Gen Idealize.ShloMosaic Idealize.ShloMosaic.TcCoe Idealize.SL.Sem
open Idealize.ShloMosaic.Tactic

variable {F : FTy → Type} [FloatOps F]

/-- The store's offsets are all zero. -/
theorem hz : (![0, 0, 0, 0, 0] : Fin 5 → Nat) = fun _ => 0 := funext fun a => by fin_cases a <;> rfl

/-- The body's one store covers the output block, and what it stores is the load of the input block `x0` through the
    rectangle of 64 planes at the point's offsets (the cast between two equal shapes in between changes nothing). -/
theorem out_A (c : Dev nD) (i : grid0.Coords) (a3 : Memref sig .tc .vmem S1x32x68x8x64 .f32) (h3 : a3.IsWhole)
    (a4 : Memref sig .tc .vmem S1x32x64x8x64 .f32) (h4 : a4.IsWhole) (x0 : Vec F S1x32x68x8x64 .f32) :
    out0_A_1 c i a3 h3 a4 h4 x0
      = View.ld x0 (Rect.unit (s := S1x32x68x8x64) (k0_off1 i) S1x32x64x8x64.size (k0_off1_inb i)) := by
  unfold out0_A_1
  rw [View.read_writes_eq_canon _ _ _ (cover0_A_1 c i a3 h3 a4 h4 x0)]
  unfold kernelRun0_A
  dsimp only
  rw [View.canon_unit_zero hz]
  unfold k0_pay1
  simp only [View.readAt_eq_ld, h3.read_unread, shapeCast_self]

end Cert.KernelIdeal.Blk

end
-- ==== Proof.KernelArray.lean ====
/-
  The kernel's result array is the group shift of its padded input.  The grid has 5 × 2 × 8 points `(g, s, r)`: the
  point's input block is channels `32 (2 g + s) … + 31`, all 68 padded planes, rows `8 r … + 7`, all 64 columns of the
  padded array, and its output block the same channels, the 64 planes, the same rows and columns of the result.  The
  body copies planes `4 - g … 67 - g` of the input block (KernelBlock), and a channel `c` of that block has
  `c / 64 = g`: so what the point writes back is its block of `xp (b, c, d + 4 - c / 64, h, w)`.  Every entry of the
  result lies in the block of exactly the point `(c / 64, (c / 32) mod 2, h / 8)`, every point writes back, and so the
  result array ends holding that function everywhere.  The padded array itself is what the two host operations in
  front of the kernel leave: the input padded with the converted integer zero.
-/
import proofs.«143295_j72404558676308_2_alg».proof.Proof.KernelBlock
import proofs.«143295_j72404558676308_2_alg».proof.Proof.Shift
import Idealize.ShloMosaic.Lib.StableHlo.Run

set_option maxRecDepth 16384

noncomputable section

namespace Cert.KernelIdeal.Arr

open Cert.KernelIdeal Cert.KernelIdeal.Gen Cert.KernelIdeal.Value Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- Decided over the 80 grid points: the input's and the output's blocks have the same block indices; those are
    `(0, 2 g + s, 0, r, 0)` with `2 g + s ≤ 9` and `r ≤ 7`; and the load's offsets are zero but on the depth, where
    the offset and half the channel-block index (the group `g`) add up to 4. -/
theorem idx_facts : ∀ t : Fin cfg0.N,
    (∀ a : Fin 5, win0_0.index t a = win0_1.index t a)
    ∧ win0_1.index t (0 : Fin 5) = 0 ∧ win0_1.index t (1 : Fin 5) ≤ 9 ∧ win0_1.index t (2 : Fin 5) = 0
    ∧ win0_1.index t (3 : Fin 5) ≤ 7 ∧ win0_1.index t (4 : Fin 5) = 0
    ∧ k0_off1 (grid0.coords t) (0 : Fin 5) = 0 ∧ k0_off1 (grid0.coords t) (1 : Fin 5) = 0
    ∧ k0_off1 (grid0.coords t) (2 : Fin 5) + win0_1.index t (1 : Fin 5) / 2 = 4
    ∧ k0_off1 (grid0.coords t) (3 : Fin 5) = 0 ∧ k0_off1 (grid0.coords t) (4 : Fin 5) = 0 :=
  (by decide +kernel : ∀ t : Fin grid0.N, _)

/-- Every pair of a channel block and a row block is some point's. -/
theorem idx_onto : ∀ (q1 : Fin 10) (q3 : Fin 8), ∃ t : Fin cfg0.N, win0_1.index t = ![0, q1.val, 0, q3.val, 0] :=
  (by decide +kernel : ∀ (q1 : Fin 10) (q3 : Fin 8), ∃ t : Fin grid0.N, win0_1.index t = ![0, q1.val, 0, q3.val, 0])

/-- WHAT POINT `t` WRITES BACK is its block of the group shift of the padded array as the kernel finds it. -/
theorem flushed_eq (c : Dev nD) (t : Fin cfg0.N) :
    (dats m 0 c).flushed 1 t = ((cfg0.win 1).blk t).view.read (Elt F) (Cert.Shift.shifted (V m c main_v0)) := by
  rw [flushed1_A, Blk.out_A]
  funext j
  show V m c main_v0 (((cfg0.win 0).blk t).view.emb
      ((Rect.unit (s := S1x32x68x8x64) (k0_off1 (grid0.coords t)) S1x32x64x8x64.size (k0_off1_inb (grid0.coords t))).idx j))
    = Cert.Shift.shifted (V m c main_v0) (((cfg0.win 1).blk t).view.emb j)
  obtain ⟨e, i0, i1, i2, i3, i4, o0, o1, o2, o3, o4⟩ := idx_facts t
  have j0 : (j 0).val < 1 := (j 0).isLt
  have j1 : (j 1).val < 32 := (j 1).isLt
  have j2 : (j 2).val < 64 := (j 2).isLt
  have j3 : (j 3).val < 8 := (j 3).isLt
  have j4 : (j 4).val < 64 := (j 4).isLt
  refine Cert.Shift.shifted_of_coords _ _ _ ?_ ?_ ?_ ?_ ?_
  · show win0_0.index t (0 : Fin 5) * 1 + 1 * (k0_off1 (grid0.coords t) (0 : Fin 5) + 1 * (j 0).val) = win0_1.index t (0 : Fin 5) * 1 + 1 * (j 0).val
    rw [e 0]; omega
  · show win0_0.index t (1 : Fin 5) * 32 + 1 * (k0_off1 (grid0.coords t) (1 : Fin 5) + 1 * (j 1).val) = win0_1.index t (1 : Fin 5) * 32 + 1 * (j 1).val
    rw [e 1]; omega
  · show win0_0.index t (2 : Fin 5) * 68 + 1 * (k0_off1 (grid0.coords t) (2 : Fin 5) + 1 * (j 2).val)
        + (win0_1.index t (1 : Fin 5) * 32 + 1 * (j 1).val) / 64
      = win0_1.index t (2 : Fin 5) * 64 + 1 * (j 2).val + 4
    rw [e 2]; omega
  · show win0_0.index t (3 : Fin 5) * 8 + 1 * (k0_off1 (grid0.coords t) (3 : Fin 5) + 1 * (j 3).val) = win0_1.index t (3 : Fin 5) * 8 + 1 * (j 3).val
    rw [e 3]; omega
  · show win0_0.index t (4 : Fin 5) * 64 + 1 * (k0_off1 (grid0.coords t) (4 : Fin 5) + 1 * (j 4).val) = win0_1.index t (4 : Fin 5) * 64 + 1 * (j 4).val
    rw [e 4]; omega

/-- An entry of the result is in point `t`'s block iff each coordinate is in the block's range on its axis. -/
theorem mem_blk (t : Fin cfg0.N) (i : S1x320x64x64x64.Idx) :
    i ∈ ((cfg0.win 1).blk t).view.set ↔ ∀ a : Fin 5, win0_1.index t a * S1x32x64x8x64.size a ≤ (i a).val
      ∧ (i a).val < win0_1.index t a * S1x32x64x8x64.size a + S1x32x64x8x64.size a := by
  show i ∈ ((View.whole main_v1).slice (win0_1.rect t)).set ↔ _
  rw [View.set_slice_whole, Rect.mem_set_unit]
  exact Iff.rfl

/-- Every entry of the result is in the block of a point, and every point writes its block back. -/
theorem cover (i : S1x320x64x64x64.Idx) :
    ∃ t : Fin cfg0.N, (cfg0.win 1).flush t = true ∧ i ∈ ((cfg0.win 1).blk t).view.set := by
  have h0 : (i 0).val < 1 := (i 0).isLt
  have h1 : (i 1).val < 320 := (i 1).isLt
  have h2 : (i 2).val < 64 := (i 2).isLt
  have h3 : (i 3).val < 64 := (i 3).isLt
  have h4 : (i 4).val < 64 := (i 4).isLt
  obtain ⟨t, ht⟩ := idx_onto ⟨(i 1).val / 32, by omega⟩ ⟨(i 3).val / 8, by omega⟩
  have q0 : win0_1.index t (0 : Fin 5) = 0 := congrFun ht 0
  have q1 : win0_1.index t (1 : Fin 5) = (i 1).val / 32 := congrFun ht 1
  have q2 : win0_1.index t (2 : Fin 5) = 0 := congrFun ht 2
  have q3 : win0_1.index t (3 : Fin 5) = (i 3).val / 8 := congrFun ht 3
  have q4 : win0_1.index t (4 : Fin 5) = 0 := congrFun ht 4
  refine ⟨t, flush0_1 t, ?_⟩
  rw [mem_blk]
  intro a
  match a with
  | ⟨0, _⟩ =>
    show win0_1.index t (0 : Fin 5) * 1 ≤ (i 0).val ∧ (i 0).val < win0_1.index t (0 : Fin 5) * 1 + 1
    omega
  | ⟨1, _⟩ =>
    show win0_1.index t (1 : Fin 5) * 32 ≤ (i 1).val ∧ (i 1).val < win0_1.index t (1 : Fin 5) * 32 + 32
    omega
  | ⟨2, _⟩ =>
    show win0_1.index t (2 : Fin 5) * 64 ≤ (i 2).val ∧ (i 2).val < win0_1.index t (2 : Fin 5) * 64 + 64
    omega
  | ⟨3, _⟩ =>
    show win0_1.index t (3 : Fin 5) * 8 ≤ (i 3).val ∧ (i 3).val < win0_1.index t (3 : Fin 5) * 8 + 8
    omega
  | ⟨4, _⟩ =>
    show win0_1.index t (4 : Fin 5) * 64 ≤ (i 4).val ∧ (i 4).val < win0_1.index t (4 : Fin 5) * 64 + 64
    omega

/-- THE RESULT ARRAY after the run: the group shift of the padded array. -/
theorem final (c : Dev nD) : (dats m 0 c).arrAt 1 cfg0.N = Cert.Shift.shifted (V m c main_v0) :=
  (dats m 0 c).arrAt_eq_of_cover 1 (Cert.Shift.shifted (V m c main_v0)) (fun t _ => flushed_eq m c t) cover

/-- The padded array as the kernel finds it: the input padded with the integer zero converted to a float, two planes
    at each end of the depth. -/
theorem V_pad (c : Dev nD) : (V m c main_v0 : S1x320x68x64x64.Idx → Elt F .f32)
    = pad S1x320x68x64x64 ![0, 0, 2, 0, 0] ![0, 0, 2, 0, 0] ![0, 0, 0, 0, 0] (m ((c : Thread nD τ).loc main_arg0))
        (sitofp .f32 (constantI S_ 32 0#32)) pads_S1x320x64x64x64_S1x320x68x64x64_000_000_220_000_000 h_S_ := by
  dsimp only [V]
  simp only [hostOps0, hostOps0_1, List.flatten_cons, List.flatten_nil, List.append_nil, List.cons_append,
    List.nil_append]
  after_results
  rfl

/-- THE RUN, READ: the result array at the group shift of the padded input, the argument unchanged. -/
theorem run : θ_run defs (onTc (τ := τ) (main (F := F))) ⟨m, fun _ => 0, ρ⟩ fun r => ∀ c : Dev nD,
      r.2.mem ((c : Thread nD τ).loc main_v1) = Cert.Shift.shifted (V m c main_v0)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Arr

end
-- ==== Proof.lean ====
/-
  The kernel and its reference compute one function of the input `x` (one batch, 320 channels, depth 64, 64 rows,
  64 columns): with `xp` the input padded by two planes of zeros at each end of the depth, entry `(b, c, d, h, w)`
  of the result is `xp (b, c, d + 4 - c / 64, h, w)` — the five groups of 64 channels moved by -2, -1, 0, 1, 2 planes
  along the depth, zeros moving in (Shift).

  The kernel pads on the host and then copies, grid point by grid point, 64 planes of a block of the padded array
  starting at plane `4 - g`, `g` the point's group (KernelBlock, KernelArray).  The reference pads the same way, cuts
  the padded array into the five groups, rolls each around the padded depth, joins them and keeps the middle 64
  planes; no kept plane is one that went around the end (RefShift).  Both pad with the same zero — the integer 0
  converted to a float — so the padded array is one term on both sides and is never opened: the equality is one of
  data movement only, holds for every extended real, and does not use that the input is finite.

  The frames of the two kernel programs and the reference's run are the generated ones; the idealization rewrote
  nothing, so it is preserved trivially.
-/
import proofs.«143295_j72404558676308_2_alg».proof.Defs
import proofs.«143295_j72404558676308_2_alg».proof.Proof.Gen.Kernel
import proofs.«143295_j72404558676308_2_alg».proof.Proof.Gen.Kernel.Skeleton
import proofs.«143295_j72404558676308_2_alg».proof.Proof.Gen.Kernel.Launch
import proofs.«143295_j72404558676308_2_alg».proof.Proof.Gen.Kernel.Points
import proofs.«143295_j72404558676308_2_alg».proof.Proof.Gen.Kernel.Frame
import proofs.«143295_j72404558676308_2_alg».proof.Proof.Gen.KernelIdeal
import proofs.«143295_j72404558676308_2_alg».proof.Proof.Gen.KernelIdeal.Skeleton
import proofs.«143295_j72404558676308_2_alg».proof.Proof.Gen.KernelIdeal.Launch
import proofs.«143295_j72404558676308_2_alg».proof.Proof.Gen.KernelIdeal.Points
import proofs.«143295_j72404558676308_2_alg».proof.Proof.Gen.KernelIdeal.Frame
import proofs.«143295_j72404558676308_2_alg».proof.Proof.Gen.ReferenceIdeal
import proofs.«143295_j72404558676308_2_alg».proof.Proof.Gen.Pre_finite_inputs
import proofs.«143295_j72404558676308_2_alg».proof.Proof.Gen.KernelIdeal.Value
import proofs.«143295_j72404558676308_2_alg».proof.Proof.Gen.ReferenceIdeal.Run
import proofs.«143295_j72404558676308_2_alg».proof.Proof.Gen.ReferenceIdeal.Read
import proofs.«143295_j72404558676308_2_alg».proof.Proof.Shift
import proofs.«143295_j72404558676308_2_alg».proof.Proof.RefShift
import proofs.«143295_j72404558676308_2_alg».proof.Proof.KernelBlock
import proofs.«143295_j72404558676308_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its argument as it was. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its argument as it was: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument, the kernel's result array ends at the group shift of the padded array it
    finds, and the reference's at the group shift of its own padded array; the two padded arrays are the same padding
    of the same argument. -/
theorem algebraic : Cert.algebraic_KernelIdeal_ReferenceIdeal := by
  intro m ρ m' ρ' _ hagree
  refine ⟨_, Cert.KernelIdeal.Arr.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefShift.ref_eq, hagree c,
    Cert.KernelIdeal.Arr.V_pad]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
